-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S5000x128 : Shape := ⟨2, ![5000, 128]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩
abbrev S64x64 : Shape := ⟨2, ![64, 64]⟩
abbrev S64x1 : Shape := ⟨2, ![64, 1]⟩

abbrev nBuf : Space → Nat
  | .hbm => 177
  | .vmem => 15
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S800000x1, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S800000x128, .f32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S50000, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S800000, .f32⟩
  | 90 => ⟨S800000x1, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S800000x128, .f32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S50000, .f32⟩
  | 107 => ⟨S50000x1, .f32⟩
  | 108 => ⟨S50000x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S50000x64, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000, .f32⟩
  | 127 => ⟨S_, .i32⟩
  | _ => ⟨S50000x128, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000, .f32⟩
  | 8 => ⟨S800000, .f32⟩
  | 9 => ⟨S800000x1, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x64, .f32⟩
  | 19 => ⟨S800000x64, .f32⟩
  | 20 => ⟨S800000x64, .f32⟩
  | 21 => ⟨S_, .f32⟩
  | 22 => ⟨S50000x64, .f32⟩
  | 23 => ⟨S800000x1, .i32⟩
  | 24 => ⟨S50000x64, .f32⟩
  | 25 => ⟨S50000, .f32⟩
  | 26 => ⟨S50000x1, .f32⟩
  | 27 => ⟨S50000x64, .f32⟩
  | 28 => ⟨S50000x64, .f32⟩
  | 29 => ⟨S50000x64, .f32⟩
  | 30 => ⟨S1x64, .f32⟩
  | 31 => ⟨S50000x64, .f32⟩
  | 32 => ⟨S50000x64, .f32⟩
  | 33 => ⟨S_, .f32⟩
  | 34 => ⟨S64x64, .f32⟩
  | 35 => ⟨S50000x1, .i32⟩
  | 36 => ⟨S64x64, .f32⟩
  | 37 => ⟨S_, .f32⟩
  | 38 => ⟨S50000, .f32⟩
  | 39 => ⟨S_, .f32⟩
  | 40 => ⟨S64, .f32⟩
  | 41 => ⟨S50000x1, .i32⟩
  | 42 => ⟨S64, .f32⟩
  | 43 => ⟨S_, .f32⟩
  | 44 => ⟨S64, .f32⟩
  | 45 => ⟨S64, .f32⟩
  | 46 => ⟨S64x1, .f32⟩
  | 47 => ⟨S64x64, .f32⟩
  | 48 => ⟨S64x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_call1_cst : Ref sig .tc := ⟨.hbm, 114, rfl⟩
abbrev main_call1_v0 : Ref sig .tc := ⟨.hbm, 115, rfl⟩
abbrev main_v86 : Ref sig .tc := ⟨.hbm, 116, rfl⟩
abbrev main_v87 : Ref sig .tc := ⟨.hbm, 117, rfl⟩
abbrev main_c_15 : Ref sig .tc := ⟨.hbm, 118, rfl⟩
abbrev main_v88 : Ref sig .tc := ⟨.hbm, 119, rfl⟩
abbrev main_v89 : Ref sig .tc := ⟨.hbm, 120, rfl⟩
abbrev main_c_16 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_c_17 : Ref sig .tc := ⟨.hbm, 127, rfl⟩
abbrev main_v95 : Ref sig .tc := ⟨.hbm, 128, rfl⟩
abbrev main_v96 : Ref sig .tc := ⟨.hbm, 129, rfl⟩
abbrev main_c_18 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_c_19 : Ref sig .tc := ⟨.hbm, 138, rfl⟩
abbrev main_v104 : Ref sig .tc := ⟨.hbm, 139, rfl⟩
abbrev main_v105 : Ref sig .tc := ⟨.hbm, 140, rfl⟩
abbrev main_c_20 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_21 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_22 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_23 : Ref sig .tc := ⟨.hbm, 165, rfl⟩
abbrev main_v127 : Ref sig .tc := ⟨.hbm, 166, rfl⟩
abbrev main_cst_24 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_25 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v86) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v87) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S64x64 : Shape := ⟨2, ![64, 64]⟩
abbrev S64x1 : Shape := ⟨2, ![64, 1]⟩

abbrev nBuf : Space → Nat
  | .hbm => 177
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S800000x1, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S800000x128, .f32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S50000, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S800000, .f32⟩
  | 90 => ⟨S800000x1, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S800000x128, .f32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S50000, .f32⟩
  | 107 => ⟨S50000x1, .f32⟩
  | 108 => ⟨S50000x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S50000x64, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000, .f32⟩
  | 127 => ⟨S_, .i32⟩
  | _ => ⟨S50000x128, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000, .f32⟩
  | 8 => ⟨S800000, .f32⟩
  | 9 => ⟨S800000x1, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x64, .f32⟩
  | 19 => ⟨S800000x64, .f32⟩
  | 20 => ⟨S800000x64, .f32⟩
  | 21 => ⟨S_, .f32⟩
  | 22 => ⟨S50000x64, .f32⟩
  | 23 => ⟨S800000x1, .i32⟩
  | 24 => ⟨S50000x64, .f32⟩
  | 25 => ⟨S50000, .f32⟩
  | 26 => ⟨S50000x1, .f32⟩
  | 27 => ⟨S50000x64, .f32⟩
  | 28 => ⟨S50000x64, .f32⟩
  | 29 => ⟨S50000x64, .f32⟩
  | 30 => ⟨S1x64, .f32⟩
  | 31 => ⟨S50000x64, .f32⟩
  | 32 => ⟨S50000x64, .f32⟩
  | 33 => ⟨S_, .f32⟩
  | 34 => ⟨S64x64, .f32⟩
  | 35 => ⟨S50000x1, .i32⟩
  | 36 => ⟨S64x64, .f32⟩
  | 37 => ⟨S_, .f32⟩
  | 38 => ⟨S50000, .f32⟩
  | 39 => ⟨S_, .f32⟩
  | 40 => ⟨S64, .f32⟩
  | 41 => ⟨S50000x1, .i32⟩
  | 42 => ⟨S64, .f32⟩
  | 43 => ⟨S_, .f32⟩
  | 44 => ⟨S64, .f32⟩
  | 45 => ⟨S64, .f32⟩
  | 46 => ⟨S64x1, .f32⟩
  | 47 => ⟨S64x64, .f32⟩
  | 48 => ⟨S64x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_call1_cst : Ref sig .tc := ⟨.hbm, 114, rfl⟩
abbrev main_call1_v0 : Ref sig .tc := ⟨.hbm, 115, rfl⟩
abbrev main_v86 : Ref sig .tc := ⟨.hbm, 116, rfl⟩
abbrev main_v87 : Ref sig .tc := ⟨.hbm, 117, rfl⟩
abbrev main_c_15 : Ref sig .tc := ⟨.hbm, 118, rfl⟩
abbrev main_v88 : Ref sig .tc := ⟨.hbm, 119, rfl⟩
abbrev main_v89 : Ref sig .tc := ⟨.hbm, 120, rfl⟩
abbrev main_c_16 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_c_17 : Ref sig .tc := ⟨.hbm, 127, rfl⟩
abbrev main_v95 : Ref sig .tc := ⟨.hbm, 128, rfl⟩
abbrev main_v96 : Ref sig .tc := ⟨.hbm, 129, rfl⟩
abbrev main_c_18 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_c_19 : Ref sig .tc := ⟨.hbm, 138, rfl⟩
abbrev main_v104 : Ref sig .tc := ⟨.hbm, 139, rfl⟩
abbrev main_v105 : Ref sig .tc := ⟨.hbm, 140, rfl⟩
abbrev main_c_20 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_21 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_22 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_23 : Ref sig .tc := ⟨.hbm, 165, rfl⟩
abbrev main_v127 : Ref sig .tc := ⟨.hbm, 166, rfl⟩
abbrev main_cst_24 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_25 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KernelRun.lean ====
/-
  The idealized kernel program's run, with its result read.

  The program is three matrix-product regions among six stretches of host operations.  Its run through those nine
  segments ends with every buffer the program does not scope at the contents the last boundary names: the fold of the
  host stretches over the launch memory, each region's arrays replaced by what its write-backs leave.  Read at the
  program's result buffer, this is the value the algebraic claim is about; read at an argument, it is the argument as
  launched.
-/
import proofs.«147968_j73332271612087_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, without a fault, with the result buffer at the last
    boundary's contents and every argument as launched. -/
theorem run_result : θ_run defs (onTc (τ := τ) (main (F := F))) ⟨m, fun _ => 0, ρ⟩ (fun r => ∀ c : Dev nD,
      r.2.mem ((c.tc : Thread nD τ).loc main_v135) = W9 m ρ c (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v135 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Hand

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.MatProduct.lean ====
/-
  The product of two matrices over the extended reals, entry by entry.

  Entry (p, o) of the product of an [n, k] matrix X with a [k, d] matrix W is the sum over j of X(p, j) · W(j, o).
  Both programs of this certificate compute exactly this function three times (once per graph-convolution layer):
  the kernel block of rows by block of rows on the matrix unit, the reference as one whole contraction.
-/
import Idealize.ShloMosaic.PureOps.Ideal.Laws
import Idealize.ShloMosaic.Lib.ValueIdx

noncomputable section

namespace Cert.Gcn

open Idealize.ShloMosaic Idealize.ShloMosaic.ValueIdx

/-- The matrix product: entry (p, o) is the sum over the shared axis of X(p, j) · W(j, o). -/
def matProd {n k d : ℕ} (X : (⟨2, ![n, k]⟩ : Shape).Idx → EReal) (W : (⟨2, ![k, d]⟩ : Shape).Idx → EReal) :
    (⟨2, ![n, d]⟩ : Shape).Idx → EReal :=
  fun i => ∑ j : Fin k, X (ix2 (i 0) j) * W (ix2 j (i 1))

/-- The product read at a pair of coordinates. -/
theorem matProd_ix2 {n k d : ℕ} (X : (⟨2, ![n, k]⟩ : Shape).Idx → EReal) (W : (⟨2, ![k, d]⟩ : Shape).Idx → EReal)
    (p : Fin n) (o : Fin d) : matProd X W (ix2 p o) = ∑ j : Fin k, X (ix2 p j) * W (ix2 j o) := rfl

/-- An entry of the product depends on one row of the left factor and one column of the right factor only: if row
    `y 0` of Y is row `i 0` of X, and column `y 1` of Z is column `i 1` of W, then entry `y` of Y · Z is entry `i` of
    X · W.  (A block of rows of X against the whole of W gives the same block of rows of X · W.) -/
theorem matProd_block {n b k d e : ℕ} (X : (⟨2, ![n, k]⟩ : Shape).Idx → EReal) (W : (⟨2, ![k, d]⟩ : Shape).Idx → EReal)
    (Y : (⟨2, ![b, k]⟩ : Shape).Idx → EReal) (Z : (⟨2, ![k, e]⟩ : Shape).Idx → EReal)
    (y : (⟨2, ![b, e]⟩ : Shape).Idx) (i : (⟨2, ![n, d]⟩ : Shape).Idx)
    (hY : ∀ j : Fin k, Y (ix2 (y 0) j) = X (ix2 (i 0) j))
    (hZ : ∀ j : Fin k, Z (ix2 j (y 1)) = W (ix2 j (i 1))) :
    matProd Y Z y = matProd X W i := by
  unfold matProd
  exact Finset.sum_congr rfl fun j _ => by rw [hY j, hZ j]

end Cert.Gcn

end
-- ==== Proof.BlockProduct.lean ====
/-
  What one grid point of each matrix-product region computes.

  The body of each region loads a block of 5000 rows of its left operand and the whole right operand, rounds both to
  bfloat16 (the identity on the extended reals), multiplies them on the matrix unit into a zero accumulator, and stores
  the result over the whole output block.  On the extended reals that result is the matrix product of the two loaded
  blocks.
-/
import proofs.«147968_j73332271612087_1_alg».proof.Proof.Gen.KernelIdeal.Skeleton
import proofs.«147968_j73332271612087_1_alg».proof.Proof.LibPlainDot
import proofs.«147968_j73332271612087_1_alg».proof.Proof.MatProduct
import Idealize.ShloMosaic.Lib.Pipeline.Value

noncomputable section

namespace Cert.KernelIdeal.Hand

open Cert.KernelIdeal Cert.KernelIdeal.Gen Cert.Gcn
open Idealize.ShloMosaic Idealize.ShloMosaic.ValueIdx

/-- First layer: the stored block is the product of the loaded row block with the loaded weights. -/
theorem pay0_eq (x0 : Vec Ideal S5000x128 .f32) (x1 : Vec Ideal S128x128 .f32) :
    k0_pay1 (F := Ideal) x0 x1 = matProd x0 x1 := by
  funext i
  obtain ⟨p, o, rfl⟩ : ∃ (p : Fin 5000) (o : Fin 128), i = ix2 p o := ⟨i 0, i 1, eq_ix2 i⟩
  unfold k0_pay1
  exact Cert.LibPlainDot.matmul_zero_apply dot_S5000x128_S128x128_S5000x128_1_0_0_1_n_n rfl rfl rfl rfl rfl rfl none _ _ p o

/-- Second layer: the same, the loaded row block first cast to its own shape. -/
theorem pay1_eq (x0 : Vec Ideal S5000x128 .f32) (x1 : Vec Ideal S128x128 .f32) :
    k1_pay1 (F := Ideal) x0 x1 = matProd x0 x1 := by
  funext i
  obtain ⟨p, o, rfl⟩ : ∃ (p : Fin 5000) (o : Fin 128), i = ix2 p o := ⟨i 0, i 1, eq_ix2 i⟩
  unfold k1_pay1
  rw [shapeCast_self]
  exact Cert.LibPlainDot.matmul_zero_apply dot_S5000x128_S128x128_S5000x128_1_0_0_1_n_n rfl rfl rfl rfl rfl rfl none _ _ p o

/-- Third layer: 64 output columns. -/
theorem pay2_eq (x0 : Vec Ideal S5000x128 .f32) (x1 : Vec Ideal S128x64 .f32) :
    k2_pay1 (F := Ideal) x0 x1 = matProd x0 x1 := by
  funext i
  obtain ⟨p, o, rfl⟩ : ∃ (p : Fin 5000) (o : Fin 64), i = ix2 p o := ⟨i 0, i 1, eq_ix2 i⟩
  unfold k2_pay1
  rw [shapeCast_self]
  exact Cert.LibPlainDot.matmul_zero_apply dot_S5000x128_S128x64_S5000x64_1_0_0_1_n_n rfl rfl rfl rfl rfl rfl none _ _ p o

end Cert.KernelIdeal.Hand

end
-- ==== Proof.Region0.lean ====
/-
  Region 0: the array its write-backs leave is the matrix product of its two operand arrays.

  The region walks ten grid points.  Point t fetches rows 5000·t … 5000·t + 4999 of the left operand and the whole right
  operand, computes their product, and writes it back over the same rows of the output.  A row of a product depends on
  that row of the left factor only, so what point t writes back is rows 5000·t … of the product of the whole arrays; the
  ten row blocks cover the output, so the output array ends as that product.  The statement is for any contents of the
  buffers at the region's entry.
-/
import proofs.«147968_j73332271612087_1_alg».proof.Proof.Gen.KernelIdeal.Frame
import proofs.«147968_j73332271612087_1_alg».proof.Proof.BlockProduct
import Idealize.ShloMosaic.Lib.Pipeline.Value

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOffsets0 : (![0, 0] : Fin 2 → Nat) = fun _ => 0 := funext fun a => by fin_cases a <;> rfl

/-- The index maps over the grid: the left operand's and the output's block row is the point's number, every block
    column is zero, and the right operand's one block is the whole array. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two operand arrays as the region finds them. -/
theorem flushed0_eq (c : Dev nD) (t : Fin cfg0.N) :
    (dat0 V c).flushed 2 t = ((cfg0.win 2).blk t).view.read (Elt Ideal)
      (matProd (n := 50000) (k := 128) (d := 128) (V c main_arg0) (V c main_arg3)) := by
  show (cfg0.win 2).cut (grid0.coords t) ((dat0 V c).after 2 t) = _
  rw [after0_2]
  unfold out0_2
  rw [View.canon_unit_zero zeroOffsets0]
  simp only [View.ld_unit_zero (S := S5000x128) zeroOffsets0, View.ld_unit_zero (S := S128x128) zeroOffsets0]
  rw [pay0_eq]
  obtain ⟨e0, e1, e2, e3, e4, e5⟩ := blockIndex0 t
  funext y
  have hy0 : (y 0).val < 5000 := (y 0).isLt
  have hy1 : (y 1).val < 128 := (y 1).isLt
  refine matProd_block (n := 50000) (b := 5000) (k := 128) (d := 128) (e := 128) (V c main_arg0) (V c main_arg3)
    (iblk0 V c 0 t) (iblk0 V c 1 t) ((cfg0.win 2).xinj (grid0.coords t) y) (((cfg0.win 2).blk t).view.emb y) (fun j => ?_) (fun j => ?_)
  · show V c main_arg0 (((cfg0.win 0).blk t).view.emb (ix2 ⟨(y 0).val, hy0⟩ j)) = V c main_arg0 (ix2 ((((cfg0.win 2).blk t).view.emb y) 0) j)
    have h : ((cfg0.win 0).blk t).view.emb (ix2 ⟨(y 0).val, hy0⟩ j) = ix2 ((((cfg0.win 2).blk t).view.emb y) 0) j := by
      funext a; apply Fin.ext
      match a with
      | ⟨0, _⟩ => show win0_0.index t (0 : Fin 2) * 5000 + 1 * (y 0).val = win0_2.index t (0 : Fin 2) * 5000 + 1 * (y 0).val; omega
      | ⟨1, _⟩ => show win0_0.index t (1 : Fin 2) * 128 + 1 * j.val = j.val; omega
    exact congrArg (V c main_arg0) h
  · show V c main_arg3 (((cfg0.win 1).blk t).view.emb (ix2 j ⟨(y 1).val, hy1⟩)) = V c main_arg3 (ix2 j ((((cfg0.win 2).blk t).view.emb y) 1))
    have h : ((cfg0.win 1).blk t).view.emb (ix2 j ⟨(y 1).val, hy1⟩) = ix2 j ((((cfg0.win 2).blk t).view.emb y) 1) := by
      funext a; apply Fin.ext
      match a with
      | ⟨0, _⟩ => show win0_1.index t (0 : Fin 2) * 128 + 1 * j.val = j.val; omega
      | ⟨1, _⟩ => show win0_1.index t (1 : Fin 2) * 128 + 1 * (y 1).val = win0_2.index t (1 : Fin 2) * 128 + 1 * (y 1).val; omega
    exact congrArg (V c main_arg3) h

/-- An index of the output array is in point `t`'s block iff each coordinate is in the block's range on its axis. -/
theorem inBlock0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v11).slice (win0_2.rect t)).set ↔ _
  rw [View.set_slice_whole, Rect.mem_set_unit]
  exact Iff.rfl

/-- Every row of the output lies in the block of the point numbered by the row's quotient by 5000. -/
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have ht : t.val = (i 0).val / 5000 := rfl
  obtain ⟨e0, e1, e2, e3, e4, e5⟩ := blockIndex0 t
  refine ⟨t, flush0_2 t, ?_⟩
  rw [inBlock0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region's ten write-backs is the product of the operand arrays. -/
theorem product0 (c : Dev nD) :
    (dat0 V c).arrAt 2 cfg0.N = matProd (n := 50000) (k := 128) (d := 128) (V c main_arg0) (V c main_arg3) :=
  (dat0 V c).arrAt_eq_of_cover 2 _ (fun t _ => flushed0_eq V c t) (covered0)

end Cert.KernelIdeal.Hand

end
-- ==== Proof.HostProduct.lean ====
/-
  The reference's contractions are matrix products.

  Each layer of the reference multiplies the [50000, 128] node features by the layer's weights with one dot_general
  contracting the features' columns against the weights' rows.  On the extended reals that is the matrix product.
-/
import proofs.«147968_j73332271612087_1_alg».proof.Proof.Gen.ReferenceIdeal
import proofs.«147968_j73332271612087_1_alg».proof.Proof.LibPlainDot
import proofs.«147968_j73332271612087_1_alg».proof.Proof.MatProduct

noncomputable section

namespace Cert.ReferenceIdeal.Hand

open Cert.ReferenceIdeal Cert.ReferenceIdeal.Gen Cert.Gcn
open Idealize.ShloMosaic Idealize.ShloMosaic.ValueIdx

/-- The contraction into 128 columns (first and second layer). -/
theorem hostDot128 (X : FVec Ideal S50000x128 .f32) (W : FVec Ideal S128x128 .f32) :
    Host.dotGeneral (F := Ideal) dot_S50000x128_S128x128_S50000x128_1_0_0_1_n_n none X W = matProd X W := by
  funext i
  obtain ⟨p, o, rfl⟩ : ∃ (p : Fin 50000) (o : Fin 128), i = ix2 p o := ⟨i 0, i 1, eq_ix2 i⟩
  exact Cert.LibPlainDot.dotGeneral_apply dot_S50000x128_S128x128_S50000x128_1_0_0_1_n_n rfl rfl rfl rfl rfl rfl none _ X W p o

/-- The contraction into 64 columns (third layer). -/
theorem hostDot64 (X : FVec Ideal S50000x128 .f32) (W : FVec Ideal S128x64 .f32) :
    Host.dotGeneral (F := Ideal) dot_S50000x128_S128x64_S50000x64_1_0_0_1_n_n none X W = matProd X W := by
  funext i
  obtain ⟨p, o, rfl⟩ : ∃ (p : Fin 50000) (o : Fin 64), i = ix2 p o := ⟨i 0, i 1, eq_ix2 i⟩
  exact Cert.LibPlainDot.dotGeneral_apply dot_S50000x128_S128x64_S50000x64_1_0_0_1_n_n rfl rfl rfl rfl rfl rfl none _ X W p o

end Cert.ReferenceIdeal.Hand

end
-- ==== Proof.Layer1Entry.lean ====
/-
  The buffers at the first region's entry and exit.

  Before the first region the host computes, from the edge list, the source and target node of every edge and the
  inverse square root of every node's degree (counting a self-loop); these are the same host operations, in the same
  order, as the reference's, so each of those buffers holds the reference's stage of the edge list.  The region then
  leaves in its output the product of the node features with the first layer's weights, which is the reference's first
  contraction; every other buffer passes through the region untouched.
-/
import proofs.«147968_j73332271612087_1_alg».proof.Proof.Gen.KernelIdeal.Frame
import proofs.«147968_j73332271612087_1_alg».proof.Proof.Gen.ReferenceIdeal.Read
import proofs.«147968_j73332271612087_1_alg».proof.Proof.Region0
import proofs.«147968_j73332271612087_1_alg».proof.Proof.HostProduct
import Idealize.ShloMosaic.Lib.StableHlo.Run

set_option maxRecDepth 16384

noncomputable section

namespace Cert.KernelIdeal.Hand

open Cert.KernelIdeal Cert.KernelIdeal.Gen Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the first region's entry -/

theorem W1_v1 (c : Dev nD) : W1 m ρ c (Proc.devRef .tc main_v1) = Cert.ReferenceIdeal.Read.val_main_v1 (F := Ideal) (m ((c : Thread nD τ).loc main_arg1)) := by
  dsimp only [W1, W0, hostOps0]
  after_results_simp <;> rfl

theorem W1_v3 (c : Dev nD) : W1 m ρ c (Proc.devRef .tc main_v3) = Cert.ReferenceIdeal.Read.val_main_v3 (F := Ideal) (m ((c : Thread nD τ).loc main_arg1)) := by
  dsimp only [W1, W0, hostOps0]
  after_results_simp <;> rfl

theorem W1_v10 (c : Dev nD) : W1 m ρ c (Proc.devRef .tc main_v10) = Cert.ReferenceIdeal.Read.val_main_v10 (F := Ideal) (m ((c : Thread nD τ).loc main_arg1)) := by
  dsimp only [W1, W0, hostOps0]
  after_results_simp <;> rfl

theorem W1_arg0 (c : Dev nD) : W1 m ρ c (Proc.devRef .tc main_arg0) = (m ((c : Thread nD τ).loc main_arg0)) := by
  dsimp only [W1, W0, hostOps0]
  after_results_simp <;> rfl

theorem W1_arg2 (c : Dev nD) : W1 m ρ c (Proc.devRef .tc main_arg2) = (m ((c : Thread nD τ).loc main_arg2)) := by
  dsimp only [W1, W0, hostOps0]
  after_results_simp <;> rfl

theorem W1_arg3 (c : Dev nD) : W1 m ρ c (Proc.devRef .tc main_arg3) = (m ((c : Thread nD τ).loc main_arg3)) := by
  dsimp only [W1, W0, hostOps0]
  after_results_simp <;> rfl

theorem W1_arg4 (c : Dev nD) : W1 m ρ c (Proc.devRef .tc main_arg4) = (m ((c : Thread nD τ).loc main_arg4)) := by
  dsimp only [W1, W0, hostOps0]
  after_results_simp <;> rfl

theorem W1_arg5 (c : Dev nD) : W1 m ρ c (Proc.devRef .tc main_arg5) = (m ((c : Thread nD τ).loc main_arg5)) := by
  dsimp only [W1, W0, hostOps0]
  after_results_simp <;> rfl

theorem W1_arg6 (c : Dev nD) : W1 m ρ c (Proc.devRef .tc main_arg6) = (m ((c : Thread nD τ).loc main_arg6)) := by
  dsimp only [W1, W0, hostOps0]
  after_results_simp <;> rfl

theorem W1_arg7 (c : Dev nD) : W1 m ρ c (Proc.devRef .tc main_arg7) = (m ((c : Thread nD τ).loc main_arg7)) := by
  dsimp only [W1, W0, hostOps0]
  after_results_simp <;> rfl

theorem W1_arg8 (c : Dev nD) : W1 m ρ c (Proc.devRef .tc main_arg8) = (m ((c : Thread nD τ).loc main_arg8)) := by
  dsimp only [W1, W0, hostOps0]
  after_results_simp <;> rfl

/-! ## At the first region's exit -/

/-- The region's output: the node features times the first layer's weights. -/
theorem W2_v11 (c : Dev nD) : W2 m ρ c (Proc.devRef .tc main_v11) = Cert.ReferenceIdeal.Read.val_main_v11 (F := Ideal) (m ((c : Thread nD τ).loc main_arg0)) (m ((c : Thread nD τ).loc main_arg3)) := by
  refine (W2_arr m ρ c 2).trans ((product0 (V1 m ρ) c).trans ?_)
  show matProd (W1 m ρ c (Proc.devRef .tc main_arg0)) (W1 m ρ c (Proc.devRef .tc main_arg3)) = _
  rw [W1_arg0, W1_arg3]
  exact (Cert.ReferenceIdeal.Hand.hostDot128 _ _).symm

theorem W2_v1 (c : Dev nD) : W2 m ρ c (Proc.devRef .tc main_v1) = Cert.ReferenceIdeal.Read.val_main_v1 (F := Ideal) (m ((c : Thread nD τ).loc main_arg1)) :=
  (W2_of_ne m ρ c main_v1 (by decide)).trans (W1_v1 m ρ c)

theorem W2_v3 (c : Dev nD) : W2 m ρ c (Proc.devRef .tc main_v3) = Cert.ReferenceIdeal.Read.val_main_v3 (F := Ideal) (m ((c : Thread nD τ).loc main_arg1)) :=
  (W2_of_ne m ρ c main_v3 (by decide)).trans (W1_v3 m ρ c)

theorem W2_v10 (c : Dev nD) : W2 m ρ c (Proc.devRef .tc main_v10) = Cert.ReferenceIdeal.Read.val_main_v10 (F := Ideal) (m ((c : Thread nD τ).loc main_arg1)) :=
  (W2_of_ne m ρ c main_v10 (by decide)).trans (W1_v10 m ρ c)

theorem W2_arg2 (c : Dev nD) : W2 m ρ c (Proc.devRef .tc main_arg2) = (m ((c : Thread nD τ).loc main_arg2)) :=
  (W2_of_ne m ρ c main_arg2 (by decide)).trans (W1_arg2 m ρ c)

theorem W2_arg4 (c : Dev nD) : W2 m ρ c (Proc.devRef .tc main_arg4) = (m ((c : Thread nD τ).loc main_arg4)) :=
  (W2_of_ne m ρ c main_arg4 (by decide)).trans (W1_arg4 m ρ c)

theorem W2_arg5 (c : Dev nD) : W2 m ρ c (Proc.devRef .tc main_arg5) = (m ((c : Thread nD τ).loc main_arg5)) :=
  (W2_of_ne m ρ c main_arg5 (by decide)).trans (W1_arg5 m ρ c)

theorem W2_arg6 (c : Dev nD) : W2 m ρ c (Proc.devRef .tc main_arg6) = (m ((c : Thread nD τ).loc main_arg6)) :=
  (W2_of_ne m ρ c main_arg6 (by decide)).trans (W1_arg6 m ρ c)

theorem W2_arg7 (c : Dev nD) : W2 m ρ c (Proc.devRef .tc main_arg7) = (m ((c : Thread nD τ).loc main_arg7)) :=
  (W2_of_ne m ρ c main_arg7 (by decide)).trans (W1_arg7 m ρ c)

theorem W2_arg8 (c : Dev nD) : W2 m ρ c (Proc.devRef .tc main_arg8) = (m ((c : Thread nD τ).loc main_arg8)) :=
  (W2_of_ne m ρ c main_arg8 (by decide)).trans (W1_arg8 m ρ c)

end Cert.KernelIdeal.Hand

end
-- ==== Proof.Region1.lean ====
/-
  Region 1: the array its write-backs leave is the matrix product of its two operand arrays.

  The region walks ten grid points.  Point t fetches rows 5000·t … 5000·t + 4999 of the left operand and the whole right
  operand, computes their product, and writes it back over the same rows of the output.  A row of a product depends on
  that row of the left factor only, so what point t writes back is rows 5000·t … of the product of the whole arrays; the
  ten row blocks cover the output, so the output array ends as that product.  The statement is for any contents of the
  buffers at the region's entry.
-/
import proofs.«147968_j73332271612087_1_alg».proof.Proof.Gen.KernelIdeal.Frame
import proofs.«147968_j73332271612087_1_alg».proof.Proof.BlockProduct
import Idealize.ShloMosaic.Lib.Pipeline.Value

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOffsets1 : (![0, 0] : Fin 2 → Nat) = fun _ => 0 := funext fun a => by fin_cases a <;> rfl

/-- The index maps over the grid: the left operand's and the output's block row is the point's number, every block
    column is zero, and the right operand's one block is the whole array. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two operand arrays as the region finds them. -/
theorem flushed1_eq (c : Dev nD) (t : Fin cfg1.N) :
    (dat1 V c).flushed 2 t = ((cfg1.win 2).blk t).view.read (Elt Ideal)
      (matProd (n := 50000) (k := 128) (d := 128) (V c main_v48) (V c main_arg5)) := by
  show (cfg1.win 2).cut (grid1.coords t) ((dat1 V c).after 2 t) = _
  rw [after1_2]
  unfold out1_2
  rw [View.canon_unit_zero zeroOffsets1]
  simp only [View.ld_unit_zero (S := S5000x128) zeroOffsets1, View.ld_unit_zero (S := S128x128) zeroOffsets1]
  rw [pay1_eq]
  obtain ⟨e0, e1, e2, e3, e4, e5⟩ := blockIndex1 t
  funext y
  have hy0 : (y 0).val < 5000 := (y 0).isLt
  have hy1 : (y 1).val < 128 := (y 1).isLt
  refine matProd_block (n := 50000) (b := 5000) (k := 128) (d := 128) (e := 128) (V c main_v48) (V c main_arg5)
    (iblk1 V c 0 t) (iblk1 V c 1 t) ((cfg1.win 2).xinj (grid1.coords t) y) (((cfg1.win 2).blk t).view.emb y) (fun j => ?_) (fun j => ?_)
  · show V c main_v48 (((cfg1.win 0).blk t).view.emb (ix2 ⟨(y 0).val, hy0⟩ j)) = V c main_v48 (ix2 ((((cfg1.win 2).blk t).view.emb y) 0) j)
    have h : ((cfg1.win 0).blk t).view.emb (ix2 ⟨(y 0).val, hy0⟩ j) = ix2 ((((cfg1.win 2).blk t).view.emb y) 0) j := by
      funext a; apply Fin.ext
      match a with
      | ⟨0, _⟩ => show win1_0.index t (0 : Fin 2) * 5000 + 1 * (y 0).val = win1_2.index t (0 : Fin 2) * 5000 + 1 * (y 0).val; omega
      | ⟨1, _⟩ => show win1_0.index t (1 : Fin 2) * 128 + 1 * j.val = j.val; omega
    exact congrArg (V c main_v48) h
  · show V c main_arg5 (((cfg1.win 1).blk t).view.emb (ix2 j ⟨(y 1).val, hy1⟩)) = V c main_arg5 (ix2 j ((((cfg1.win 2).blk t).view.emb y) 1))
    have h : ((cfg1.win 1).blk t).view.emb (ix2 j ⟨(y 1).val, hy1⟩) = ix2 j ((((cfg1.win 2).blk t).view.emb y) 1) := by
      funext a; apply Fin.ext
      match a with
      | ⟨0, _⟩ => show win1_1.index t (0 : Fin 2) * 128 + 1 * j.val = j.val; omega
      | ⟨1, _⟩ => show win1_1.index t (1 : Fin 2) * 128 + 1 * (y 1).val = win1_2.index t (1 : Fin 2) * 128 + 1 * (y 1).val; omega
    exact congrArg (V c main_arg5) h

/-- An index of the output array is in point `t`'s block iff each coordinate is in the block's range on its axis. -/
theorem inBlock1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- Every row of the output lies in the block of the point numbered by the row's quotient by 5000. -/
theorem covered1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have ht : t.val = (i 0).val / 5000 := rfl
  obtain ⟨e0, e1, e2, e3, e4, e5⟩ := blockIndex1 t
  refine ⟨t, flush1_2 t, ?_⟩
  rw [inBlock1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region's ten write-backs is the product of the operand arrays. -/
theorem product1 (c : Dev nD) :
    (dat1 V c).arrAt 2 cfg1.N = matProd (n := 50000) (k := 128) (d := 128) (V c main_v48) (V c main_arg5) :=
  (dat1 V c).arrAt_eq_of_cover 2 _ (fun t _ => flushed1_eq V c t) (covered1)

end Cert.KernelIdeal.Hand

end
-- ==== Proof.Layer2Entry.lean ====
/-
  The first layer's tail and the second region.

  Between the first and the second region the host gathers the projected features along the edges, scales them by the
  two endpoints' inverse square-root degrees, adds them up per target node, adds the self-loop term and the bias, and
  floors at zero: the same operations as the reference's, applied to buffers that hold the reference's stages, so the
  result is the reference's stage.  The second region multiplies that by the second layer's weights, which is the
  reference's second contraction.
-/
import proofs.«147968_j73332271612087_1_alg».proof.Proof.Layer1Entry
import proofs.«147968_j73332271612087_1_alg».proof.Proof.Region1
import Idealize.ShloMosaic.Lib.StableHlo.Run

set_option maxRecDepth 16384

noncomputable section

namespace Cert.KernelIdeal.Hand

open Cert.KernelIdeal Cert.KernelIdeal.Gen Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the second region's entry -/

/-- The first layer before its floor: aggregation along the edges, self-loop term and bias. -/
theorem W3_v47 (c : Dev nD) : W3 m ρ c (Proc.devRef .tc main_v47) = Cert.ReferenceIdeal.Read.val_main_v47 (F := Ideal) (m ((c : Thread nD τ).loc main_arg0)) (m ((c : Thread nD τ).loc main_arg1)) (m ((c : Thread nD τ).loc main_arg3)) (m ((c : Thread nD τ).loc main_arg4)) := by
  dsimp only [W3, hostOps1]
  after_results_simp
  rw [W2_v11 m ρ c, W2_v10 m ρ c, W2_v1 m ρ c, W2_v3 m ρ c, W2_arg4 m ρ c]
  rfl

/-- The floor at zero, from any contents: the maximum of the layer's sum with the zero matrix. -/
theorem floorAtZero1 (V : Valuation τ sig (Elt Ideal)) :
    after hostOps1_1 V (Proc.devRef .tc main_v48)
      = maximumf (F := Ideal) (V (Proc.devRef .tc main_v47)) (broadcastInDim S50000x128 ![] bcast_S_S50000x128 (constant (F := Ideal) S_ .f32 0x00000000#32)) := by
  dsimp only [hostOps1_1]
  after_results_simp
  rfl

/-- The first layer's output after its floor at zero. -/
theorem W4_v48 (c : Dev nD) : W4 m ρ c (Proc.devRef .tc main_v48) = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) := by
  refine (floorAtZero1 (W3 m ρ c)).trans ?_
  rw [W3_v47 m ρ c]
  rfl

theorem W4_v1 (c : Dev nD) : W4 m ρ c (Proc.devRef .tc main_v1) = Cert.ReferenceIdeal.Read.val_main_v1 (F := Ideal) (m ((c : Thread nD τ).loc main_arg1)) := by
  dsimp only [W4, W3, hostOps1, hostOps1_1]
  after_results_simp
  exact W2_v1 m ρ c

theorem W4_v3 (c : Dev nD) : W4 m ρ c (Proc.devRef .tc main_v3) = Cert.ReferenceIdeal.Read.val_main_v3 (F := Ideal) (m ((c : Thread nD τ).loc main_arg1)) := by
  dsimp only [W4, W3, hostOps1, hostOps1_1]
  after_results_simp
  exact W2_v3 m ρ c

theorem W4_v10 (c : Dev nD) : W4 m ρ c (Proc.devRef .tc main_v10) = Cert.ReferenceIdeal.Read.val_main_v10 (F := Ideal) (m ((c : Thread nD τ).loc main_arg1)) := by
  dsimp only [W4, W3, hostOps1, hostOps1_1]
  after_results_simp
  exact W2_v10 m ρ c

theorem W4_arg2 (c : Dev nD) : W4 m ρ c (Proc.devRef .tc main_arg2) = (m ((c : Thread nD τ).loc main_arg2)) := by
  dsimp only [W4, W3, hostOps1, hostOps1_1]
  after_results_simp
  exact W2_arg2 m ρ c

theorem W4_arg5 (c : Dev nD) : W4 m ρ c (Proc.devRef .tc main_arg5) = (m ((c : Thread nD τ).loc main_arg5)) := by
  dsimp only [W4, W3, hostOps1, hostOps1_1]
  after_results_simp
  exact W2_arg5 m ρ c

theorem W4_arg6 (c : Dev nD) : W4 m ρ c (Proc.devRef .tc main_arg6) = (m ((c : Thread nD τ).loc main_arg6)) := by
  dsimp only [W4, W3, hostOps1, hostOps1_1]
  after_results_simp
  exact W2_arg6 m ρ c

theorem W4_arg7 (c : Dev nD) : W4 m ρ c (Proc.devRef .tc main_arg7) = (m ((c : Thread nD τ).loc main_arg7)) := by
  dsimp only [W4, W3, hostOps1, hostOps1_1]
  after_results_simp
  exact W2_arg7 m ρ c

theorem W4_arg8 (c : Dev nD) : W4 m ρ c (Proc.devRef .tc main_arg8) = (m ((c : Thread nD τ).loc main_arg8)) := by
  dsimp only [W4, W3, hostOps1, hostOps1_1]
  after_results_simp
  exact W2_arg8 m ρ c

/-! ## At the second region's exit -/

/-- The region's output: the first layer's output times the second layer's weights. -/
theorem W5_v49 (c : Dev nD) : W5 m ρ c (Proc.devRef .tc main_v49) = Cert.ReferenceIdeal.Read.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ((product1 (V4 m ρ) c).trans ?_)
  show matProd (W4 m ρ c (Proc.devRef .tc main_v48)) (W4 m ρ c (Proc.devRef .tc main_arg5)) = _
  rw [W4_v48, W4_arg5]
  exact (Cert.ReferenceIdeal.Hand.hostDot128 _ _).symm

theorem W5_v1 (c : Dev nD) : W5 m ρ c (Proc.devRef .tc main_v1) = Cert.ReferenceIdeal.Read.val_main_v1 (F := Ideal) (m ((c : Thread nD τ).loc main_arg1)) :=
  (W5_of_ne m ρ c main_v1 (by decide)).trans (W4_v1 m ρ c)

theorem W5_v3 (c : Dev nD) : W5 m ρ c (Proc.devRef .tc main_v3) = Cert.ReferenceIdeal.Read.val_main_v3 (F := Ideal) (m ((c : Thread nD τ).loc main_arg1)) :=
  (W5_of_ne m ρ c main_v3 (by decide)).trans (W4_v3 m ρ c)

theorem W5_v10 (c : Dev nD) : W5 m ρ c (Proc.devRef .tc main_v10) = Cert.ReferenceIdeal.Read.val_main_v10 (F := Ideal) (m ((c : Thread nD τ).loc main_arg1)) :=
  (W5_of_ne m ρ c main_v10 (by decide)).trans (W4_v10 m ρ c)

theorem W5_arg2 (c : Dev nD) : W5 m ρ c (Proc.devRef .tc main_arg2) = (m ((c : Thread nD τ).loc main_arg2)) :=
  (W5_of_ne m ρ c main_arg2 (by decide)).trans (W4_arg2 m ρ c)

theorem W5_arg6 (c : Dev nD) : W5 m ρ c (Proc.devRef .tc main_arg6) = (m ((c : Thread nD τ).loc main_arg6)) :=
  (W5_of_ne m ρ c main_arg6 (by decide)).trans (W4_arg6 m ρ c)

theorem W5_arg7 (c : Dev nD) : W5 m ρ c (Proc.devRef .tc main_arg7) = (m ((c : Thread nD τ).loc main_arg7)) :=
  (W5_of_ne m ρ c main_arg7 (by decide)).trans (W4_arg7 m ρ c)

theorem W5_arg8 (c : Dev nD) : W5 m ρ c (Proc.devRef .tc main_arg8) = (m ((c : Thread nD τ).loc main_arg8)) :=
  (W5_of_ne m ρ c main_arg8 (by decide)).trans (W4_arg8 m ρ c)

end Cert.KernelIdeal.Hand

end
-- ==== Proof.Region2.lean ====
/-
  Region 2: the array its write-backs leave is the matrix product of its two operand arrays.

  The region walks ten grid points.  Point t fetches rows 5000·t … 5000·t + 4999 of the left operand and the whole right
  operand, computes their product, and writes it back over the same rows of the output.  A row of a product depends on
  that row of the left factor only, so what point t writes back is rows 5000·t … of the product of the whole arrays; the
  ten row blocks cover the output, so the output array ends as that product.  The statement is for any contents of the
  buffers at the region's entry.
-/
import proofs.«147968_j73332271612087_1_alg».proof.Proof.Gen.KernelIdeal.Frame
import proofs.«147968_j73332271612087_1_alg».proof.Proof.BlockProduct
import Idealize.ShloMosaic.Lib.Pipeline.Value

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOffsets2 : (![0, 0] : Fin 2 → Nat) = fun _ => 0 := funext fun a => by fin_cases a <;> rfl

/-- The index maps over the grid: the left operand's and the output's block row is the point's number, every block
    column is zero, and the right operand's one block is the whole array. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two operand arrays as the region finds them. -/
theorem flushed2_eq (c : Dev nD) (t : Fin cfg2.N) :
    (dat2 V c).flushed 2 t = ((cfg2.win 2).blk t).view.read (Elt Ideal)
      (matProd (n := 50000) (k := 128) (d := 64) (V c main_v86) (V c main_arg7)) := by
  show (cfg2.win 2).cut (grid2.coords t) ((dat2 V c).after 2 t) = _
  rw [after2_2]
  unfold out2_2
  rw [View.canon_unit_zero zeroOffsets2]
  simp only [View.ld_unit_zero (S := S5000x128) zeroOffsets2, View.ld_unit_zero (S := S128x64) zeroOffsets2]
  rw [pay2_eq]
  obtain ⟨e0, e1, e2, e3, e4, e5⟩ := blockIndex2 t
  funext y
  have hy0 : (y 0).val < 5000 := (y 0).isLt
  have hy1 : (y 1).val < 64 := (y 1).isLt
  refine matProd_block (n := 50000) (b := 5000) (k := 128) (d := 64) (e := 64) (V c main_v86) (V c main_arg7)
    (iblk2 V c 0 t) (iblk2 V c 1 t) ((cfg2.win 2).xinj (grid2.coords t) y) (((cfg2.win 2).blk t).view.emb y) (fun j => ?_) (fun j => ?_)
  · show V c main_v86 (((cfg2.win 0).blk t).view.emb (ix2 ⟨(y 0).val, hy0⟩ j)) = V c main_v86 (ix2 ((((cfg2.win 2).blk t).view.emb y) 0) j)
    have h : ((cfg2.win 0).blk t).view.emb (ix2 ⟨(y 0).val, hy0⟩ j) = ix2 ((((cfg2.win 2).blk t).view.emb y) 0) j := by
      funext a; apply Fin.ext
      match a with
      | ⟨0, _⟩ => show win2_0.index t (0 : Fin 2) * 5000 + 1 * (y 0).val = win2_2.index t (0 : Fin 2) * 5000 + 1 * (y 0).val; omega
      | ⟨1, _⟩ => show win2_0.index t (1 : Fin 2) * 128 + 1 * j.val = j.val; omega
    exact congrArg (V c main_v86) h
  · show V c main_arg7 (((cfg2.win 1).blk t).view.emb (ix2 j ⟨(y 1).val, hy1⟩)) = V c main_arg7 (ix2 j ((((cfg2.win 2).blk t).view.emb y) 1))
    have h : ((cfg2.win 1).blk t).view.emb (ix2 j ⟨(y 1).val, hy1⟩) = ix2 j ((((cfg2.win 2).blk t).view.emb y) 1) := by
      funext a; apply Fin.ext
      match a with
      | ⟨0, _⟩ => show win2_1.index t (0 : Fin 2) * 128 + 1 * j.val = j.val; omega
      | ⟨1, _⟩ => show win2_1.index t (1 : Fin 2) * 64 + 1 * (y 1).val = win2_2.index t (1 : Fin 2) * 64 + 1 * (y 1).val; omega
    exact congrArg (V c main_arg7) h

/-- An index of the output array is in point `t`'s block iff each coordinate is in the block's range on its axis. -/
theorem inBlock2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v87).slice (win2_2.rect t)).set ↔ _
  rw [View.set_slice_whole, Rect.mem_set_unit]
  exact Iff.rfl

/-- Every row of the output lies in the block of the point numbered by the row's quotient by 5000. -/
theorem covered2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  have ht : t.val = (i 0).val / 5000 := rfl
  obtain ⟨e0, e1, e2, e3, e4, e5⟩ := blockIndex2 t
  refine ⟨t, flush2_2 t, ?_⟩
  rw [inBlock2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array after the region's ten write-backs is the product of the operand arrays. -/
theorem product2 (c : Dev nD) :
    (dat2 V c).arrAt 2 cfg2.N = matProd (n := 50000) (k := 128) (d := 64) (V c main_v86) (V c main_arg7) :=
  (dat2 V c).arrAt_eq_of_cover 2 _ (fun t _ => flushed2_eq V c t) (covered2)

end Cert.KernelIdeal.Hand

end
-- ==== Proof.Layer3Entry.lean ====
/-
  The second layer's tail and the third region.

  The host applies to the second region's output the same aggregation along the edges, self-loop term, bias and floor
  at zero as the reference, from buffers that hold the reference's stages; the third region multiplies the result by
  the third layer's weights, which is the reference's third contraction (into 64 columns).
-/
import proofs.«147968_j73332271612087_1_alg».proof.Proof.Layer2Entry
import proofs.«147968_j73332271612087_1_alg».proof.Proof.Region2
import Idealize.ShloMosaic.Lib.StableHlo.Run

set_option maxRecDepth 16384

noncomputable section

namespace Cert.KernelIdeal.Hand

open Cert.KernelIdeal Cert.KernelIdeal.Gen Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the third region's entry -/

/-- The second layer before its floor: aggregation along the edges, self-loop term and bias. -/
theorem W6_v85 (c : Dev nD) : W6 m ρ c (Proc.devRef .tc main_v85) = Cert.ReferenceIdeal.Read.val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  dsimp only [W6, hostOps2]
  after_results_simp
  rw [W5_v49 m ρ c, W5_v10 m ρ c, W5_v1 m ρ c, W5_v3 m ρ c, W5_arg6 m ρ c]
  rfl

/-- The floor at zero, from any contents: the maximum of the layer's sum with the zero matrix. -/
theorem floorAtZero2 (V : Valuation τ sig (Elt Ideal)) :
    after hostOps2_1 V (Proc.devRef .tc main_v86)
      = maximumf (F := Ideal) (V (Proc.devRef .tc main_v85)) (broadcastInDim S50000x128 ![] bcast_S_S50000x128 (constant (F := Ideal) S_ .f32 0x00000000#32)) := by
  dsimp only [hostOps2_1]
  after_results_simp
  rfl

/-- The second layer's output after its floor at zero. -/
theorem W7_v86 (c : Dev nD) : W7 m ρ c (Proc.devRef .tc main_v86) = Cert.ReferenceIdeal.Read.val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (floorAtZero2 (W6 m ρ c)).trans ?_
  rw [W6_v85 m ρ c]
  rfl

theorem W7_v1 (c : Dev nD) : W7 m ρ c (Proc.devRef .tc main_v1) = Cert.ReferenceIdeal.Read.val_main_v1 (F := Ideal) (m ((c : Thread nD τ).loc main_arg1)) := by
  dsimp only [W7, W6, hostOps2, hostOps2_1]
  after_results_simp
  exact W5_v1 m ρ c

theorem W7_v3 (c : Dev nD) : W7 m ρ c (Proc.devRef .tc main_v3) = Cert.ReferenceIdeal.Read.val_main_v3 (F := Ideal) (m ((c : Thread nD τ).loc main_arg1)) := by
  dsimp only [W7, W6, hostOps2, hostOps2_1]
  after_results_simp
  exact W5_v3 m ρ c

theorem W7_v10 (c : Dev nD) : W7 m ρ c (Proc.devRef .tc main_v10) = Cert.ReferenceIdeal.Read.val_main_v10 (F := Ideal) (m ((c : Thread nD τ).loc main_arg1)) := by
  dsimp only [W7, W6, hostOps2, hostOps2_1]
  after_results_simp
  exact W5_v10 m ρ c

theorem W7_arg2 (c : Dev nD) : W7 m ρ c (Proc.devRef .tc main_arg2) = (m ((c : Thread nD τ).loc main_arg2)) := by
  dsimp only [W7, W6, hostOps2, hostOps2_1]
  after_results_simp
  exact W5_arg2 m ρ c

theorem W7_arg7 (c : Dev nD) : W7 m ρ c (Proc.devRef .tc main_arg7) = (m ((c : Thread nD τ).loc main_arg7)) := by
  dsimp only [W7, W6, hostOps2, hostOps2_1]
  after_results_simp
  exact W5_arg7 m ρ c

theorem W7_arg8 (c : Dev nD) : W7 m ρ c (Proc.devRef .tc main_arg8) = (m ((c : Thread nD τ).loc main_arg8)) := by
  dsimp only [W7, W6, hostOps2, hostOps2_1]
  after_results_simp
  exact W5_arg8 m ρ c

/-! ## At the third region's exit -/

/-- The region's output: the second layer's output times the third layer's weights. -/
theorem W8_v87 (c : Dev nD) : W8 m ρ c (Proc.devRef .tc main_v87) = Cert.ReferenceIdeal.Read.val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 2).trans ((product2 (V7 m ρ) c).trans ?_)
  show matProd (W7 m ρ c (Proc.devRef .tc main_v86)) (W7 m ρ c (Proc.devRef .tc main_arg7)) = _
  rw [W7_v86, W7_arg7]
  exact (Cert.ReferenceIdeal.Hand.hostDot64 _ _).symm

theorem W8_v1 (c : Dev nD) : W8 m ρ c (Proc.devRef .tc main_v1) = Cert.ReferenceIdeal.Read.val_main_v1 (F := Ideal) (m ((c : Thread nD τ).loc main_arg1)) :=
  (W8_of_ne m ρ c main_v1 (by decide)).trans (W7_v1 m ρ c)

theorem W8_v3 (c : Dev nD) : W8 m ρ c (Proc.devRef .tc main_v3) = Cert.ReferenceIdeal.Read.val_main_v3 (F := Ideal) (m ((c : Thread nD τ).loc main_arg1)) :=
  (W8_of_ne m ρ c main_v3 (by decide)).trans (W7_v3 m ρ c)

theorem W8_v10 (c : Dev nD) : W8 m ρ c (Proc.devRef .tc main_v10) = Cert.ReferenceIdeal.Read.val_main_v10 (F := Ideal) (m ((c : Thread nD τ).loc main_arg1)) :=
  (W8_of_ne m ρ c main_v10 (by decide)).trans (W7_v10 m ρ c)

theorem W8_arg2 (c : Dev nD) : W8 m ρ c (Proc.devRef .tc main_arg2) = (m ((c : Thread nD τ).loc main_arg2)) :=
  (W8_of_ne m ρ c main_arg2 (by decide)).trans (W7_arg2 m ρ c)

theorem W8_arg8 (c : Dev nD) : W8 m ρ c (Proc.devRef .tc main_arg8) = (m ((c : Thread nD τ).loc main_arg8)) :=
  (W8_of_ne m ρ c main_arg8 (by decide)).trans (W7_arg8 m ρ c)

end Cert.KernelIdeal.Hand

end
-- ==== Proof.Pooled.lean ====
/-
  The third layer's tail and the mean over each graph: the program's result.

  After the third region the host aggregates along the edges, adds the self-loop term and the bias, sums the node
  features of each graph, counts each graph's nodes, and divides the sums by the counts floored at one: the same
  operations as the reference's, applied to buffers that hold the reference's stages.  So the result buffer holds the
  reference's result, as a function of the nine arguments.
-/
import proofs.«147968_j73332271612087_1_alg».proof.Proof.Layer3Entry
import Idealize.ShloMosaic.Lib.StableHlo.Run

set_option maxRecDepth 16384

noncomputable section

namespace Cert.KernelIdeal.Hand

open Cert.KernelIdeal Cert.KernelIdeal.Gen Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg)

/-- The program's result at the last boundary is the reference's result stage of the launch arguments. -/
theorem W9_v135 (c : Dev nD) : W9 m ρ c (Proc.devRef .tc main_v135) = Cert.ReferenceIdeal.Read.val_main_v135 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  dsimp only [W9, hostOps3]
  after_results_simp
  rw [W8_v87 m ρ c, W8_v10 m ρ c, W8_v1 m ρ c, W8_v3 m ρ c, W8_arg8 m ρ c, W8_arg2 m ρ c]
  rfl

end Cert.KernelIdeal.Hand

end
-- ==== Proof.lean ====
/-
  Three graph-convolution layers and a mean over each graph: the kernel against its reference.

  Both programs compute, from node features x, an edge list, a graph id per node and three layers' weights and biases,

    deg  = 1 + (number of edges into each node),            dinv = deg^(-1/2),
    conv(h, W, b)[i] = Σ_{edges j→i} dinv[j] · dinv[i] · (h W)[j]  +  dinv[i]² · (h W)[i]  +  b,
    h₁ = max(conv(x, W1, b1), 0),   h₂ = max(conv(h₁, W2, b2), 0),   h₃ = conv(h₂, W3, b3),
    out[g] = (Σ_{nodes i of graph g} h₃[i]) / max(number of nodes of graph g, 1).

  The two programs apply the same host operations in the same order; they differ only in how the three matrix products
  h W are computed.  The reference contracts the whole [50000, 128] matrix against the weights at once.  The kernel
  walks ten blocks of 5000 rows, rounds the block and the weights to bfloat16 (the identity on the extended reals), and
  multiplies them on the matrix unit into a zero accumulator.  A row of a product depends only on that row of the left
  factor, so the ten blocks written back are the ten row blocks of the whole product, and they cover the output: each
  region leaves exactly the reference's contraction.  Everything downstream is then the same function of equal inputs.
  No law of arithmetic beyond reading both contractions as the same finite sum is used, so the precondition (finite
  inputs) is never opened.

  The kernel's idealization rewrote nothing, so the claim that it is the kernel's idealization is trivial.
-/
import proofs.«147968_j73332271612087_1_alg».proof.Defs
import proofs.«147968_j73332271612087_1_alg».proof.Proof.Gen.Kernel
import proofs.«147968_j73332271612087_1_alg».proof.Proof.Gen.Kernel.Frame
import proofs.«147968_j73332271612087_1_alg».proof.Proof.Gen.KernelIdeal
import proofs.«147968_j73332271612087_1_alg».proof.Proof.Gen.KernelIdeal.Frame
import proofs.«147968_j73332271612087_1_alg».proof.Proof.Gen.ReferenceIdeal
import proofs.«147968_j73332271612087_1_alg».proof.Proof.Gen.ReferenceIdeal.Run
import proofs.«147968_j73332271612087_1_alg».proof.Proof.Gen.ReferenceIdeal.Read
import proofs.«147968_j73332271612087_1_alg».proof.Proof.Gen.Pre_finite_inputs
import proofs.«147968_j73332271612087_1_alg».proof.Proof.KernelRun
import proofs.«147968_j73332271612087_1_alg».proof.Proof.Pooled
import Idealize.ShloMosaic.Adequacy
import Idealize.ShloMosaic.Init

noncomputable section

namespace Cert.Proof

open Idealize.ShloMosaic Idealize.ShloMosaic.TcCoe Idealize.SL.Sem

/-- The kernel as printed runs, and leaves its arguments unchanged. -/
theorem frame_kernel : Cert.frame_Kernel := fun m ρ _ => Cert.Kernel.Gen.frame m ρ

/-- The idealized kernel runs, and leaves its arguments unchanged. -/
theorem frame_kernelIdeal : Cert.frame_KernelIdeal := fun m ρ _ => Cert.KernelIdeal.Gen.frame m ρ

/-- The idealized reference runs, and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the nine arguments both programs end with the same [64, 64] result: the kernel's is
    the reference's result stage of its own arguments (the three regions' outputs being the reference's three
    contractions), the reference's is that stage of its arguments, and the arguments agree. -/
theorem algebraic : Cert.algebraic_KernelIdeal_ReferenceIdeal := by
  intro m ρ m' ρ' _ hagree
  refine ⟨fun c => Cert.KernelIdeal.Gen.W9 m ρ c (Proc.devRef .tc Cert.KernelIdeal.main_v135),
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v135_eq, h0, h1, h2, h3, h4, h5, h6, h7, h8]
  exact (Cert.KernelIdeal.Hand.W9_v135 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
